-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x577x768 : Shape := ⟨3, ![32, 577, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S32x577x768 : S_.BroadcastsInDim S32x577x768 (![] : Fin 0 → Fin S32x577x768.rank)
  reducesTo_S32x577x768_S_d0_1_2 : S32x577x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x577x768 .f32) (main_arg1 : FVec F S2304x768 .f32) (main_arg2 : FVec F S2304 .f32) (main_arg3 : FVec F S768x768 .f32) (main_arg4 : FVec F S768 .f32) : IVec S_ 1 :=
  let main_v0 : FVec F S32x577x768 .f32 := Host.absf main_arg0
  let main_cst : FVec F S_ .f32 := constant S_ .f32 0x7F800000#32
  let main_v1 : FVec F S32x577x768 .f32 := broadcastInDim S32x577x768 ![] bcast_S_S32x577x768 main_cst
  let main_v2 : IVec S32x577x768 1 := cmpf .olt main_v0 main_v1
  let main_c : IVec S_ 1 := constantI S_ 1 1#1
  let main_v3 : IVec S_ 1 := (fun x v => Host.reduce IntOp.andi x v reducesTo_S32x577x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S32x577x768 : Shape := ⟨3, ![32, 577, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1x2304 : Shape := ⟨2, ![1, 2304]⟩
abbrev S1x768 : Shape := ⟨2, ![1, 768]⟩
abbrev S1x577x768 : Shape := ⟨3, ![1, 577, 768]⟩
abbrev S577x768 : Shape := ⟨2, ![577, 768]⟩
abbrev S577x2304 : Shape := ⟨2, ![577, 2304]⟩
abbrev S577x64 : Shape := ⟨2, ![577, 64]⟩
abbrev S577x577 : Shape := ⟨2, ![577, 577]⟩
abbrev S577 : Shape := ⟨1, ![577]⟩
abbrev S577x1 : Shape := ⟨2, ![577, 1]⟩

abbrev nBuf : Space → Nat
  | .hbm => 11
  | .vmem => 8
  | .smem => 0
  | _ => 0

abbrev bufTy : (tb : Table) → Fin (tcTables nBuf tb) → BufTy
  | .hbm, ⟨0, _⟩ => ⟨S32x577x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S32x577x768, .bf16⟩
  | .hbm, ⟨6, _⟩ => ⟨S2304x768, .bf16⟩
  | .hbm, ⟨7, _⟩ => ⟨S768x768, .bf16⟩
  | .hbm, ⟨8, _⟩ => ⟨S1x2304, .f32⟩
  | .hbm, ⟨9, _⟩ => ⟨S1x768, .f32⟩
  | .hbm, ⟨10, _⟩ => ⟨S32x577x768, .f32⟩
  | .local _ .vmem, ⟨0, _⟩ => ⟨S1x577x768, .bf16⟩
  | .local _ .vmem, ⟨1, _⟩ => ⟨S1x577x768, .bf16⟩
  | .local _ .vmem, ⟨2, _⟩ => ⟨S2304x768, .bf16⟩
  | .local _ .vmem, ⟨3, _⟩ => ⟨S1x2304, .f32⟩
  | .local _ .vmem, ⟨4, _⟩ => ⟨S768x768, .bf16⟩
  | .local _ .vmem, ⟨5, _⟩ => ⟨S1x768, .f32⟩
  | .local _ .vmem, ⟨6, _⟩ => ⟨S1x577x768, .f32⟩
  | .local _ .vmem, ⟨7, _⟩ => ⟨S1x577x768, .f32⟩
  | _, _ => ⟨S32x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x577x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x577x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S2304_S1x2304 : S2304.ShapeCasts S1x2304
  shapeCasts_S768_S1x768 : S768.ShapeCasts S1x768
  inb_S1x577x768_S1x577x768_0_0_0 : ∀ a, (![0, 0, 0] : Fin 3 → Nat) a + S1x577x768.size a ≤ S1x577x768.size a
  h_S1x577x768 : 0 < S1x577x768.numel
  shapeCasts_S1x577x768_S577x768 : S1x577x768.ShapeCasts S577x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x2304_S577x2304 : S1x2304.Broadcasts S577x2304
  slices_S577x2304_o0_0_S577x768 : S577x2304.Slices ![0, 0] S577x768
  slices_S577x2304_o0_768_S577x768 : S577x2304.Slices ![0, 768] S577x768
  slices_S577x2304_o0_1536_S577x768 : S577x2304.Slices ![0, 1536] S577x768
  slices_S577x768_o0_0_S577x64 : S577x768.Slices ![0, 0] S577x64
  reduces_S577x577_S577 : S577x577.Reduces [1] S577
  shapeCasts_S577_S577x1 : S577.ShapeCasts S577x1
  broadcasts_S577x1_S577x577 : S577x1.Broadcasts S577x577
  slices_S577x768_o0_64_S577x64 : S577x768.Slices ![0, 64] S577x64
  slices_S577x768_o0_128_S577x64 : S577x768.Slices ![0, 128] S577x64
  slices_S577x768_o0_192_S577x64 : S577x768.Slices ![0, 192] S577x64
  slices_S577x768_o0_256_S577x64 : S577x768.Slices ![0, 256] S577x64
  slices_S577x768_o0_320_S577x64 : S577x768.Slices ![0, 320] S577x64
  slices_S577x768_o0_384_S577x64 : S577x768.Slices ![0, 384] S577x64
  slices_S577x768_o0_448_S577x64 : S577x768.Slices ![0, 448] S577x64
  slices_S577x768_o0_512_S577x64 : S577x768.Slices ![0, 512] S577x64
  slices_S577x768_o0_576_S577x64 : S577x768.Slices ![0, 576] S577x64
  slices_S577x768_o0_640_S577x64 : S577x768.Slices ![0, 640] S577x64
  slices_S577x768_o0_704_S577x64 : S577x768.Slices ![0, 704] S577x64
  concatenates_S577x64_S577x64_S577x64_S577x64_S577x64_S577x64_S577x64_S577x64_S577x64_S577x64_S577x64_S577x64_S577x768_d1 : Shape.Concatenates [S577x64, S577x64, S577x64, S577x64, S577x64, S577x64, S577x64, S577x64, S577x64, S577x64, S577x64, S577x64] S577x768 1
  broadcasts_S1x768_S577x768 : S1x768.Broadcasts S577x768
  shapeCasts_S577x768_S1x577x768 : S577x768.ShapeCasts S1x577x768
  dot_S577x768_S2304x768_S577x2304_1_1_0_0_n_n_wf : DotDims.WF S577x768 S2304x768 S577x2304 [1] [1] [0] [0] [] []
  dot_S577x64_S577x64_S577x577_1_1_0_0_n_n_wf : DotDims.WF S577x64 S577x64 S577x577 [1] [1] [0] [0] [] []
  dot_S577x577_S577x64_S577x64_1_0_0_1_n_n_wf : DotDims.WF S577x577 S577x64 S577x64 [1] [0] [0] [1] [] []
  dot_S577x768_S768x768_S577x768_1_1_0_0_n_n_wf : DotDims.WF S577x768 S768x768 S577x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x577x768.size a ≤ S32x577x768.size a
  hwx0_0 : ∀ i : grid0.Coords, EltTy.bits .bf16 = 32 ∨ (Rect.block (s := S32x577x768) S1x577x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x577x768.size a ≤ S32x577x768.size a
  hwx0_5 : ∀ i : grid0.Coords, EltTy.bits .f32 = 32 ∨ (Rect.block (s := S32x577x768) S1x577x768.size (cc0_transform_5 i) (hinb0_5 i)).WholeWords (EltTy.packing .f32)

variable [Facts₀]

def dot_S577x768_S2304x768_S577x2304_1_1_0_0_n_n : DotDims S577x768 S2304x768 S577x2304 where
  lhsContracting := [1]
  rhsContracting := [1]
  lhsNonContracting := [0]
  rhsNonContracting := [0]
  lhsBatch := []
  rhsBatch := []
  wf := dot_S577x768_S2304x768_S577x2304_1_1_0_0_n_n_wf
def dot_S577x64_S577x64_S577x577_1_1_0_0_n_n : DotDims S577x64 S577x64 S577x577 where
  lhsContracting := [1]
  rhsContracting := [1]
  lhsNonContracting := [0]
  rhsNonContracting := [0]
  lhsBatch := []
  rhsBatch := []
  wf := dot_S577x64_S577x64_S577x577_1_1_0_0_n_n_wf
def dot_S577x577_S577x64_S577x64_1_0_0_1_n_n : DotDims S577x577 S577x64 S577x64 where
  lhsContracting := [1]
  rhsContracting := [0]
  lhsNonContracting := [0]
  rhsNonContracting := [1]
  lhsBatch := []
  rhsBatch := []
  wf := dot_S577x577_S577x64_S577x64_1_0_0_1_n_n_wf
def dot_S577x768_S768x768_S577x768_1_1_0_0_n_n : DotDims S577x768 S768x768 S577x768 where
  lhsContracting := [1]
  rhsContracting := [1]
  lhsNonContracting := [0]
  rhsNonContracting := [0]
  lhsBatch := []
  rhsBatch := []
  wf := dot_S577x768_S768x768_S577x768_1_1_0_0_n_n_wf

abbrev win0_0 : Pipeline.Window sig grid0 :=
  Pipeline.Window.ofSpec (Memref.whole main_v0) S1x577x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x577x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x577x768 : Shape := ⟨3, ![32, 577, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S32x577x2304 : Shape := ⟨3, ![32, 577, 2304]⟩
abbrev S1x1x2304 : Shape := ⟨3, ![1, 1, 2304]⟩
abbrev S32x577x3x12x64 : Shape := ⟨5, ![32, 577, 3, 12, 64]⟩
abbrev S32x577x1x12x64 : Shape := ⟨5, ![32, 577, 1, 12, 64]⟩
abbrev S32x577x12x64 : Shape := ⟨4, ![32, 577, 12, 64]⟩
abbrev S32x12x577x64 : Shape := ⟨4, ![32, 12, 577, 64]⟩
abbrev S32x12x577x577 : Shape := ⟨4, ![32, 12, 577, 577]⟩
abbrev S_ : Shape := ⟨0, ![]⟩
abbrev S32x12x577 : Shape := ⟨3, ![32, 12, 577]⟩
abbrev S32x12x577x1 : Shape := ⟨4, ![32, 12, 577, 1]⟩
abbrev S1x1x768 : Shape := ⟨3, ![1, 1, 768]⟩

abbrev nBuf : Space → Nat
  | .hbm => 44
  | .vmem => 0
  | .smem => 0
  | _ => 0

abbrev bufTy : (tb : Table) → Fin (tcTables nBuf tb) → BufTy
  | .hbm, ⟨0, _⟩ => ⟨S32x577x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S32x577x2304, .f32⟩
  | .hbm, ⟨6, _⟩ => ⟨S1x1x2304, .f32⟩
  | .hbm, ⟨7, _⟩ => ⟨S32x577x2304, .f32⟩
  | .hbm, ⟨8, _⟩ => ⟨S32x577x2304, .f32⟩
  | .hbm, ⟨9, _⟩ => ⟨S32x577x3x12x64, .f32⟩
  | .hbm, ⟨10, _⟩ => ⟨S32x577x1x12x64, .f32⟩
  | .hbm, ⟨11, _⟩ => ⟨S32x577x12x64, .f32⟩
  | .hbm, ⟨12, _⟩ => ⟨S32x12x577x64, .f32⟩
  | .hbm, ⟨13, _⟩ => ⟨S32x577x1x12x64, .f32⟩
  | .hbm, ⟨14, _⟩ => ⟨S32x577x12x64, .f32⟩
  | .hbm, ⟨15, _⟩ => ⟨S32x12x577x64, .f32⟩
  | .hbm, ⟨16, _⟩ => ⟨S32x577x1x12x64, .f32⟩
  | .hbm, ⟨17, _⟩ => ⟨S32x577x12x64, .f32⟩
  | .hbm, ⟨18, _⟩ => ⟨S32x12x577x64, .f32⟩
  | .hbm, ⟨19, _⟩ => ⟨S32x12x577x577, .f32⟩
  | .hbm, ⟨20, _⟩ => ⟨S_, .f32⟩
  | .hbm, ⟨21, _⟩ => ⟨S32x12x577x577, .f32⟩
  | .hbm, ⟨22, _⟩ => ⟨S32x12x577x577, .f32⟩
  | .hbm, ⟨23, _⟩ => ⟨S_, .f32⟩
  | .hbm, ⟨24, _⟩ => ⟨S32x12x577, .f32⟩
  | .hbm, ⟨25, _⟩ => ⟨S_, .f32⟩
  | .hbm, ⟨26, _⟩ => ⟨S32x12x577, .f32⟩
  | .hbm, ⟨27, _⟩ => ⟨S32x12x577, .f32⟩
  | .hbm, ⟨28, _⟩ => ⟨S32x12x577x1, .f32⟩
  | .hbm, ⟨29, _⟩ => ⟨S32x12x577x577, .f32⟩
  | .hbm, ⟨30, _⟩ => ⟨S32x12x577x577, .f32⟩
  | .hbm, ⟨31, _⟩ => ⟨S32x12x577x577, .f32⟩
  | .hbm, ⟨32, _⟩ => ⟨S_, .f32⟩
  | .hbm, ⟨33, _⟩ => ⟨S32x12x577, .f32⟩
  | .hbm, ⟨34, _⟩ => ⟨S32x12x577x1, .f32⟩
  | .hbm, ⟨35, _⟩ => ⟨S32x12x577x577, .f32⟩
  | .hbm, ⟨36, _⟩ => ⟨S32x12x577x577, .f32⟩
  | .hbm, ⟨37, _⟩ => ⟨S32x12x577x64, .f32⟩
  | .hbm, ⟨38, _⟩ => ⟨S32x577x12x64, .f32⟩
  | .hbm, ⟨39, _⟩ => ⟨S32x577x768, .f32⟩
  | .hbm, ⟨40, _⟩ => ⟨S32x577x768, .f32⟩
  | .hbm, ⟨41, _⟩ => ⟨S1x1x768, .f32⟩
  | .hbm, ⟨42, _⟩ => ⟨S32x577x768, .f32⟩
  | .hbm, ⟨43, _⟩ => ⟨S32x577x768, .f32⟩
  | _, _ => ⟨S32x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S32x577x2304_0_1_2 : S1x1x2304.BroadcastsInDim S32x577x2304 (![0, 1, 2] : Fin 3 → Fin S32x577x2304.rank)
  shapeCasts_S32x577x2304_S32x577x3x12x64 : S32x577x2304.ShapeCasts S32x577x3x12x64
  slices_S32x577x3x12x64_S32x577x1x12x64_0_0_0_0_0 : S32x577x3x12x64.Slices ![0, 0, 0, 0, 0] S32x577x1x12x64
  shapeCasts_S32x577x1x12x64_S32x577x12x64 : S32x577x1x12x64.ShapeCasts S32x577x12x64
  transposes_S32x577x12x64_S32x12x577x64_0_2_1_3 : S32x577x12x64.Transposes [0, 2, 1, 3] S32x12x577x64
  slices_S32x577x3x12x64_S32x577x1x12x64_0_0_1_0_0 : S32x577x3x12x64.Slices ![0, 0, 1, 0, 0] S32x577x1x12x64
  slices_S32x577x3x12x64_S32x577x1x12x64_0_0_2_0_0 : S32x577x3x12x64.Slices ![0, 0, 2, 0, 0] S32x577x1x12x64
  bcast_S_S32x12x577x577 : S_.BroadcastsInDim S32x12x577x577 (![] : Fin 0 → Fin S32x12x577x577.rank)
  reducesTo_S32x12x577x577_S32x12x577_d3 : S32x12x577x577.ReducesTo [3] S32x12x577
  h_S_ : 0 < S_.numel
  bcast_S_S32x12x577 : S_.BroadcastsInDim S32x12x577 (![] : Fin 0 → Fin S32x12x577.rank)
  bcast_S32x12x577_S32x12x577x1_0_1_2 : S32x12x577.BroadcastsInDim S32x12x577x1 (![0, 1, 2] : Fin 3 → Fin S32x12x577x1.rank)
  bcast_S32x12x577x1_S32x12x577x577_0_1_2_3 : S32x12x577x1.BroadcastsInDim S32x12x577x577 (![0, 1, 2, 3] : Fin 4 → Fin S32x12x577x577.rank)
  transposes_S32x12x577x64_S32x577x12x64_0_2_1_3 : S32x12x577x64.Transposes [0, 2, 1, 3] S32x577x12x64
  shapeCasts_S32x577x12x64_S32x577x768 : S32x577x12x64.ShapeCasts S32x577x768
  bcast_S768_S1x1x768_2 : S768.BroadcastsInDim S1x1x768 (![2] : Fin 1 → Fin S1x1x768.rank)
  bcast_S1x1x768_S32x577x768_0_1_2 : S1x1x768.BroadcastsInDim S32x577x768 (![0, 1, 2] : Fin 3 → Fin S32x577x768.rank)
  dot_S32x577x768_S2304x768_S32x577x2304_2_1_01_0_n_n_wf : DotDims.WF S32x577x768 S2304x768 S32x577x2304 [2] [1] [0, 1] [0] [] []
  dot_S32x12x577x64_S32x12x577x64_S32x12x577x577_3_3_2_2_01_01_wf : DotDims.WF S32x12x577x64 S32x12x577x64 S32x12x577x577 [3] [3] [2] [2] [0, 1] [0, 1]
  dot_S32x12x577x577_S32x12x577x64_S32x12x577x64_3_2_2_3_01_01_wf : DotDims.WF S32x12x577x577 S32x12x577x64 S32x12x577x64 [3] [2] [2] [3] [0, 1] [0, 1]
  dot_S32x577x768_S768x768_S32x577x768_2_1_01_0_n_n_wf : DotDims.WF S32x577x768 S768x768 S32x577x768 [2] [1] [0, 1] [0] [] []

variable [Facts₀]

def dot_S32x577x768_S2304x768_S32x577x2304_2_1_01_0_n_n : DotDims S32x577x768 S2304x768 S32x577x2304 where
  lhsContracting := [2]
  rhsContracting := [1]
  lhsNonContracting := [0, 1]
  rhsNonContracting := [0]
  lhsBatch := []
  rhsBatch := []
  wf := dot_S32x577x768_S2304x768_S32x577x2304_2_1_01_0_n_n_wf
def dot_S32x12x577x64_S32x12x577x64_S32x12x577x577_3_3_2_2_01_01 : DotDims S32x12x577x64 S32x12x577x64 S32x12x577x577 where
  lhsContracting := [3]
  rhsContracting := [3]
  lhsNonContracting := [2]
  rhsNonContracting := [2]
  lhsBatch := [0, 1]
  rhsBatch := [0, 1]
  wf := dot_S32x12x577x64_S32x12x577x64_S32x12x577x577_3_3_2_2_01_01_wf
def dot_S32x12x577x577_S32x12x577x64_S32x12x577x64_3_2_2_3_01_01 : DotDims S32x12x577x577 S32x12x577x64 S32x12x577x64 where
  lhsContracting := [3]
  rhsContracting := [2]
  lhsNonContracting := [2]
  rhsNonContracting := [3]
  lhsBatch := [0, 1]
  rhsBatch := [0, 1]
  wf := dot_S32x12x577x577_S32x12x577x64_S32x12x577x64_3_2_2_3_01_01_wf
def dot_S32x577x768_S768x768_S32x577x768_2_1_01_0_n_n : DotDims S32x577x768 S768x768 S32x577x768 where
  lhsContracting := [2]
  rhsContracting := [1]
  lhsNonContracting := [0, 1]
  rhsNonContracting := [0]
  lhsBatch := []
  rhsBatch := []
  wf := dot_S32x577x768_S768x768_S32x577x768_2_1_01_0_n_n_wf

class Facts : Prop extends Facts₀ where

variable [Facts]
-- ==== Proof.Spec.lean ====
/-
  Multi-head softmax attention between two linear maps, on coordinates, over the extended reals.

  A row `p` of the input is projected to 2304 columns (`proj`: `x · Wᵀ + b`), read as three groups of twelve heads
  of 64 lanes (`col c h s = 768 c + 64 h + s`; group 0 the values, group 1 the queries, group 2 the keys). A head's
  score of row `p` against row `r` is the scaled product of its query lanes at `p` with its key lanes at `r`; a row
  of scores goes through softmax (subtract the row's largest score, exponentiate, divide by the row's sum) and weighs
  the head's value rows (`head`). The twelve heads' results, laid side by side (`hd d = d / 64`, `ln d = d % 64`),
  go through the second linear map (`attn`). Every sum is a sum over a `Fin`, the largest score a fold of `max`
  from the word of −∞, so nothing here depends on an order of summation.
-/
import Idealize.ShloMosaic.PureOps.Ideal

noncomputable section

namespace Cert.Attn

open Idealize.ShloMosaic

/-- The softmax scale, the f32 nearest 96^(-1/2): the same word in both programs, never evaluated. -/
def scaleW : EReal := Ideal.ofBits .f32 0x3DD105EC#32
/-- The word of −∞, from which a row's largest score is folded. -/
def negInfW : EReal := Ideal.ofBits .f32 0xFF800000#32

section head
variable {P S : ℕ}

/-- The scaled score of row `p`'s query against row `r`'s key. -/
def score (q k : Fin P → Fin S → EReal) (p r : Fin P) : EReal := (∑ t : Fin S, q p t * k r t) * scaleW
/-- The largest score of row `p`. -/
def rowMax (q k : Fin P → Fin S → EReal) (p : Fin P) : EReal :=
  (Finset.univ : Finset (Fin P)).fold max negInfW (fun r => score q k p r)
/-- The exponential of a score less its row's largest. -/
def expo (q k : Fin P → Fin S → EReal) (p r : Fin P) : EReal := Ideal.exp (score q k p r - rowMax q k p)
/-- The softmax weight of row `r` for row `p`. -/
def weight (q k : Fin P → Fin S → EReal) (p r : Fin P) : EReal := Ideal.div (expo q k p r) (∑ r' : Fin P, expo q k p r')
/-- One head: the value rows weighed by row `p`'s softmax weights, at lane `s`. -/
def head (q k v : Fin P → Fin S → EReal) (p : Fin P) (s : Fin S) : EReal := ∑ r : Fin P, weight q k p r * v r s
end head

/-- A linear map with bias: row `p` of `x · Wᵀ + b` at column `e`. -/
def proj {A K N : ℕ} (X : Fin A → Fin K → EReal) (W : Fin N → Fin K → EReal) (B : Fin N → EReal) (p : Fin A) (e : Fin N) : EReal :=
  (∑ d : Fin K, X p d * W e d) + B e

/-- Column `768 c + 64 h + s` of the projected row: group `c`, head `h`, lane `s`. -/
def col (c : Fin 3) (h : Fin 12) (s : Fin 64) : Fin 2304 := ⟨c.val * 768 + h.val * 64 + s.val, by omega⟩
/-- The head a column of the side-by-side heads belongs to, and its lane there. -/
def hd (d : Fin 768) : Fin 12 := ⟨d.val / 64, by omega⟩
def ln (d : Fin 768) : Fin 64 := ⟨d.val % 64, by omega⟩

/-- Head `h` of the projected rows `Y`, at row `p` and lane `s`. -/
def headOf (Y : Fin 577 → Fin 2304 → EReal) (h : Fin 12) (p : Fin 577) (s : Fin 64) : EReal :=
  head (fun p t => Y p (col 1 h t)) (fun p t => Y p (col 2 h t)) (fun p t => Y p (col 0 h t)) p s

/-- The whole layer on one batch entry: project, attend head by head, lay the heads side by side, project again. -/
def attn (X : Fin 577 → Fin 768 → EReal) (W : Fin 2304 → Fin 768 → EReal) (B : Fin 2304 → EReal)
    (Wo : Fin 768 → Fin 768 → EReal) (Bo : Fin 768 → EReal) (p : Fin 577) (e : Fin 768) : EReal :=
  proj (fun p d => headOf (proj X W B) (hd d) p (ln d)) Wo Bo p e

end Cert.Attn

end
-- ==== Proof.LibNtMatmul.lean ====
/-
  A matrix product `M × K` by `N × K` in which BOTH operands are contracted on their last axis (the right operand is
  used transposed, no batch axis), accumulated into the zero splat and read at coordinates at the ideal values: entry
  (p, q) of the product is `∑ k, lhs (p, k) · rhs (q, k)` over the `K` positions of the contracted axis, a sum
  indexed by `Fin K`. Nothing of real arithmetic is used beyond `0 + x = x`, so it holds at the infinities too.
-/
import Idealize.ShloMosaic.Lib.ValueIdx
import Idealize.ShloMosaic.PureOps.Ideal.Laws

namespace Cert.NtMatmul

open Idealize.ShloMosaic Idealize.ShloMosaic.ValueIdx

/-- The contraction index of such a product is its one coordinate. -/
abbrev contrFin (M K N : ℕ) : (DotDims.transposedRhs M K N).contr.Idx ≃ Fin K :=
  contrEquiv1 (DotDims.transposedRhs M K N) K rfl rfl

/-- The left operand is read at (row of the result, contraction position). -/
theorem lhsIdx_nt (M K N : ℕ) (p : Fin M) (q : Fin N) (k : Fin K) :
    (DotDims.transposedRhs M K N).lhsIdx (ix2 p q) ((contrFin M K N).symm k) = ix2 p k := by
  funext a
  apply Fin.ext
  match a with
  | ⟨0, _⟩ => rfl
  | ⟨1, _⟩ => exact contrEquiv1_symm_val (DotDims.transposedRhs M K N) K rfl rfl k

/-- The right operand is read at (column of the result, contraction position). -/
theorem rhsIdx_nt (M K N : ℕ) (p : Fin M) (q : Fin N) (k : Fin K) :
    (DotDims.transposedRhs M K N).rhsIdx (ix2 p q) ((contrFin M K N).symm k) = ix2 q k := by
  funext a
  apply Fin.ext
  match a with
  | ⟨0, _⟩ => rfl
  | ⟨1, _⟩ => exact contrEquiv1_symm_val (DotDims.transposedRhs M K N) K rfl rfl k

/-- Entry (p, q) of such a product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrFin M K N).symm]
  exact Finset.sum_congr rfl fun k _ => by rw [lhsIdx_nt, rhsIdx_nt]

end Cert.NtMatmul
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.HeadVec.lean ====
/-
  One attention head as the kernel spells it, on 577 × 64 slabs of queries, keys and values, and what it holds at an
  index at the ideal values.

  The kernel forms the 577 × 577 scores as a product contracted on the lanes of both operands, scales them, takes each
  row's largest score (a fold of max from −∞ along the row, kept as a column and laid back along the row), exponentiates
  the differences, sums each row (again kept as a column and laid back), divides, and multiplies the 577 × 577 weights
  into the 577 × 64 values. The roundings to bf16 on the way are the identity at the ideal values. Read at (p, s) this
  is `Attn.head` of the three slabs' coordinates: the products are sums over `Fin 64` and `Fin 577`, the row
  reductions a fold and a sum over `Fin 577`.
-/
import proofs.«168642_j24395414241982_2_alg».proof.KernelIdeal
import proofs.«168642_j24395414241982_2_alg».proof.Proof.Spec
import proofs.«168642_j24395414241982_2_alg».proof.Proof.LibNtMatmul
import proofs.«168642_j24395414241982_2_alg».proof.Proof.LibPlainMatmul
import proofs.«168642_j24395414241982_2_alg».proof.Proof.LibKeepdims
import Idealize.ShloMosaic.Lib.ValueIdx
import Idealize.ShloMosaic.Lib.Pipeline.Value
import Idealize.ShloMosaic.PureOps.Ideal.Laws

noncomputable section

namespace Cert.KernelIdeal.HeadVec

open Idealize.ShloMosaic Idealize.ShloMosaic.ValueIdx Cert.KernelIdeal Cert.KernelIdeal.Facts₀

variable [Cert.KernelIdeal.Facts]

section stages
variable {F : FTy → Type} [FloatOps F]

/-- The scaled scores of a head: queries against keys, contracted on the lanes. -/
def scoreVec (q k : FVec F S577x64 .f32) : FVec F S577x577 .f32 :=
  mulf (matmul dot_S577x64_S577x64_S577x577_1_1_0_0_n_n none (truncf .bf16 q bitsLt_bf16_f32) (truncf .bf16 k bitsLt_bf16_f32)
      (constant S577x577 .f32 0x00000000#32))
    (broadcast S577x577 (Scalar.ofBits .f32 0x3DD105EC#32))

/-- Each row's largest score. -/
def maxVec (sc : FVec F S577x577 .f32) : FVec F S577 .f32 :=
  multiReduction .maximumf [1] S577 sc 0xFF800000#32 reduces_S577x577_S577 (.inl rfl) rfl

/-- The exponentials of the scores less their row's largest. -/
def expVec (sc : FVec F S577x577 .f32) (mx : FVec F S577 .f32) : FVec F S577x577 .f32 :=
  exp (subf sc (broadcastTo S577x577 (shapeCast S577x1 mx shapeCasts_S577_S577x1) broadcasts_S577x1_S577x577))

/-- Each row's sum of exponentials, laid back along the row. -/
def denVec (e : FVec F S577x577 .f32) : FVec F S577x577 .f32 :=
  broadcastTo S577x577 (shapeCast S577x1 (multiReduction .add [1] S577 e 0x00000000#32 reduces_S577x577_S577 (.inl rfl) rfl)
    shapeCasts_S577_S577x1) broadcasts_S577x1_S577x577

/-- The softmax weights times the values. -/
def mixVec (e den : FVec F S577x577 .f32) (v : FVec F S577x64 .bf16) : FVec F S577x64 .f32 :=
  matmul dot_S577x577_S577x64_S577x64_1_0_0_1_n_n none (truncf .bf16 (divf e den) bitsLt_bf16_f32) v
    (constant S577x64 .f32 0x00000000#32)

/-- One head from its 577 × 64 slabs of queries, keys and values. -/
def headVec (q k v : FVec F S577x64 .f32) : FVec F S577x64 .bf16 :=
  truncf .bf16 (mixVec (expVec (scoreVec q k) (maxVec (scoreVec q k))) (denVec (expVec (scoreVec q k) (maxVec (scoreVec q k))))
    (truncf .bf16 v bitsLt_bf16_f32)) bitsLt_bf16_f32

end stages

/-! ## The stages read at an index, at the ideal values -/

theorem scoreVec_apply (q k : FVec Ideal S577x64 .f32) (p r : Fin 577) :
    scoreVec q k (ix2 p r) = Attn.score (fun p t => q (ix2 p t)) (fun p t => k (ix2 p t)) p r := by
  unfold scoreVec Attn.score
  refine congrArg (· * Attn.scaleW) ?_
  exact NtMatmul.matmul_zero_apply 577 64 577 none (truncf .bf16 q bitsLt_bf16_f32) (truncf .bf16 k bitsLt_bf16_f32) p r

/-- A row's largest entry: the fold of max from the −∞ word over the row. -/
theorem maxVec_apply (sc : FVec Ideal S577x577 .f32) (p : Fin 577) :
    maxVec sc (ix1 p) = (Finset.univ : Finset (Fin 577)).fold max Attn.negInfW (fun r => sc (ix2 p r)) := by
  unfold maxVec
  refine (Ideal.multiReduction_maximumf_single sc 0xFF800000#32 reduces_S577x577_S577 (.inl rfl) rfl (ix1 p)).trans ?_
  refine congrArg (fun f => (Finset.univ : Finset (Fin 577)).fold max Attn.negInfW f) ?_
  funext r
  refine congrArg sc ?_
  funext a
  apply Fin.ext
  match a with
  | ⟨0, _⟩ => rfl
  | ⟨1, _⟩ => rfl

/-- A vector kept as a column and laid back along the rows reads, at (p, r), its entry `p`. -/
theorem column_apply (x : FVec Ideal S577 .f32) (p r : Fin 577) :
    broadcastTo S577x577 (shapeCast S577x1 x shapeCasts_S577_S577x1) broadcasts_S577x1_S577x577 (ix2 p r) = x (ix1 p) :=
  (Keepdims.broadcastTo_a1_ab_apply _ broadcasts_S577x1_S577x577 p r).trans
    (Keepdims.shapeCast_a_a1_apply x shapeCasts_S577_S577x1 p 0)

theorem expVec_apply (sc : FVec Ideal S577x577 .f32) (mx : FVec Ideal S577 .f32) (p r : Fin 577) :
    expVec sc mx (ix2 p r) = Ideal.exp (sc (ix2 p r) - mx (ix1 p)) := by
  unfold expVec
  show Ideal.exp (sc (ix2 p r) - broadcastTo S577x577 (shapeCast S577x1 mx shapeCasts_S577_S577x1) broadcasts_S577x1_S577x577 (ix2 p r)) = _
  rw [column_apply]

/-- A row's sum, laid back along the row. -/
theorem denVec_apply (e : FVec Ideal S577x577 .f32) (p r : Fin 577) :
    denVec e (ix2 p r) = ∑ r' : Fin 577, e (ix2 p r') := by
  unfold denVec
  refine (column_apply _ p r).trans ?_
  refine (Ideal.multiReduction_add_single e 0x00000000#32 reduces_S577x577_S577 (.inl rfl) rfl (ix1 p)).trans ?_
  refine Finset.sum_congr rfl fun r' _ => congrArg e ?_
  funext a
  apply Fin.ext
  match a with
  | ⟨0, _⟩ => rfl
  | ⟨1, _⟩ => rfl

theorem mixVec_apply (e den : FVec Ideal S577x577 .f32) (v : FVec Ideal S577x64 .bf16) (p : Fin 577) (s : Fin 64) :
    mixVec e den v (ix2 p s) = ∑ r : Fin 577, Ideal.div (e (ix2 p r)) (den (ix2 p r)) * v (ix2 r s) := by
  unfold mixVec
  exact PlainMatmul.matmul_zero_apply 577 577 64 none (truncf .bf16 (divf e den) bitsLt_bf16_f32) v p s

/-- **One head at an index**: `Attn.head` of the three slabs' coordinates. -/
theorem headVec_apply (q k v : FVec Ideal S577x64 .f32) (p : Fin 577) (s : Fin 64) :
    headVec q k v (ix2 p s)
      = Attn.head (fun p t => q (ix2 p t)) (fun p t => k (ix2 p t)) (fun p t => v (ix2 p t)) p s := by
  unfold headVec
  show mixVec (F := Ideal) _ _ _ (ix2 p s) = _
  rw [mixVec_apply]
  unfold Attn.head Attn.weight Attn.expo Attn.rowMax
  refine Finset.sum_congr rfl fun r _ => ?_
  have hmx : maxVec (scoreVec q k) (ix1 p)
      = (Finset.univ : Finset (Fin 577)).fold max Attn.negInfW
          (fun r => Attn.score (fun p t => q (ix2 p t)) (fun p t => k (ix2 p t)) p r) := by
    rw [maxVec_apply]
    exact congrArg (fun f => (Finset.univ : Finset (Fin 577)).fold max Attn.negInfW f) (funext fun r => scoreVec_apply q k p r)
  have hex : ∀ r' : Fin 577, expVec (scoreVec q k) (maxVec (scoreVec q k)) (ix2 p r')
      = Ideal.exp (Attn.score (fun p t => q (ix2 p t)) (fun p t => k (ix2 p t)) p r'
          - (Finset.univ : Finset (Fin 577)).fold max Attn.negInfW
              (fun r => Attn.score (fun p t => q (ix2 p t)) (fun p t => k (ix2 p t)) p r)) := fun r' => by
    rw [expVec_apply, scoreVec_apply, hmx]
  rw [denVec_apply, hex r]
  refine congrArg (fun x => Ideal.div _ x * _) ?_
  exact Finset.sum_congr rfl fun r' _ => hex r'

end Cert.KernelIdeal.HeadVec

end
-- ==== Proof.LibConcatCols.lean ====
/-
  `N` matrices of `a × K` entries laid side by side along the columns into an `a × w` matrix, read at coordinates:
  entry (p, d) of the whole is entry (p, d % K) of piece number d / K. Also: a concatenation does not depend on how its
  list of pieces is spelt.
-/
import Idealize.ShloMosaic.Lib.ValueIdx
import Idealize.ShloMosaic.Lib.Pipeline.Value

namespace Cert.ConcatCols

open Idealize.ShloMosaic Idealize.ShloMosaic.ValueIdx

variable {α : Type}

/-- Two spellings of one list of pieces concatenate to the same array. -/
theorem concatenate_congr {t : Shape} (a : Fin t.rank) (xs ys : List ((s : Shape) × (s.Idx → α))) (e : xs = ys)
    (h : Shape.Concatenates (xs.map (·.1)) t a) (h' : Shape.Concatenates (ys.map (·.1)) t a) :
    concatenate t a xs h = concatenate t a ys h' := by
  subst e; rfl

/-- Entry (p, d) of `N` pieces of `a × K` laid side by side: piece `d / K` at (p, d % K). -/
theorem concat_cols_apply {a K w N : ℕ} (f : Fin N → ((⟨2, ![a, K]⟩ : Shape).Idx → α))
    (h : Shape.Concatenates ((List.ofFn fun n : Fin N => (⟨⟨2, ![a, K]⟩, f n⟩ : (s : Shape) × (s.Idx → α))).map (·.1))
      ⟨2, ![a, w]⟩ (1 : Fin 2))
    (p : Fin a) (d : Fin w) (n : Fin N) (s : Fin K) (hn : d.val / K = n.val) (hs : s.val = d.val % K) :
    concatenate ⟨2, ![a, w]⟩ (1 : Fin 2) (List.ofFn fun n : Fin N => (⟨⟨2, ![a, K]⟩, f n⟩ : (s : Shape) × (s.Idx → α))) h (ix2 p d)
      = f n (ix2 p s) := by
  refine concatenate_ofFn_apply (t := ⟨2, ![a, w]⟩) (s₁ := ⟨2, ![a, K]⟩) (1 : Fin 2) f h rfl K rfl (ix2 p d) n hn (ix2 p s) hs ?_
  intro b hb
  match b with
  | ⟨0, _⟩ => rfl
  | ⟨1, _⟩ => exact absurd rfl hb

end Cert.ConcatCols
-- ==== Proof.Payload.lean ====
/-
  What the kernel's body stores, as one structured term, and that term at an index.

  The body projects its 577 × 768 block of rows to 577 × 2304 columns, cuts the three groups of 768 columns apart and
  each group into twelve slabs of 64 lanes, runs one attention head on each triple of slabs (HeadVec), lays the twelve
  results side by side and projects them through the second linear map. The printed body spells this as a chain of
  named values cut at arbitrary places; `stored_eq` says that chain IS the structured term `outVec … (heads …)`
  (the two unfold to the same operations), and the rest of the file reads the structured term at (0, p, e): it is
  `Attn.attn` of the coordinates of the five loaded blocks.
-/
import proofs.«168642_j24395414241982_2_alg».proof.Proof.Gen.KernelIdeal.Skeleton
import proofs.«168642_j24395414241982_2_alg».proof.Proof.HeadVec
import proofs.«168642_j24395414241982_2_alg».proof.Proof.LibConcatCols
import Idealize.ShloMosaic.Lib.ValueLayout

noncomputable section

namespace Cert.KernelIdeal.Payload

open Idealize.ShloMosaic Idealize.ShloMosaic.ValueIdx Cert.KernelIdeal Cert.KernelIdeal.Gen
open Cert.KernelIdeal.HeadVec

variable [Cert.KernelIdeal.Facts]

section structured
variable {F : FTy → Type} [FloatOps F]

/-- The twelve heads, each on its slabs of 64 lanes of the query, key and value groups. -/
def heads (v13 v14 v15 : FVec F S577x768 .f32) : Fin 12 → FVec F S577x64 .bf16 :=
  ![headVec (extractStridedSlice S577x64 ![0, 0] v14 slices_S577x768_o0_0_S577x64) (extractStridedSlice S577x64 ![0, 0] v15 slices_S577x768_o0_0_S577x64) (extractStridedSlice S577x64 ![0, 0] v13 slices_S577x768_o0_0_S577x64),
    headVec (extractStridedSlice S577x64 ![0, 64] v14 slices_S577x768_o0_64_S577x64) (extractStridedSlice S577x64 ![0, 64] v15 slices_S577x768_o0_64_S577x64) (extractStridedSlice S577x64 ![0, 64] v13 slices_S577x768_o0_64_S577x64),
    headVec (extractStridedSlice S577x64 ![0, 128] v14 slices_S577x768_o0_128_S577x64) (extractStridedSlice S577x64 ![0, 128] v15 slices_S577x768_o0_128_S577x64) (extractStridedSlice S577x64 ![0, 128] v13 slices_S577x768_o0_128_S577x64),
    headVec (extractStridedSlice S577x64 ![0, 192] v14 slices_S577x768_o0_192_S577x64) (extractStridedSlice S577x64 ![0, 192] v15 slices_S577x768_o0_192_S577x64) (extractStridedSlice S577x64 ![0, 192] v13 slices_S577x768_o0_192_S577x64),
    headVec (extractStridedSlice S577x64 ![0, 256] v14 slices_S577x768_o0_256_S577x64) (extractStridedSlice S577x64 ![0, 256] v15 slices_S577x768_o0_256_S577x64) (extractStridedSlice S577x64 ![0, 256] v13 slices_S577x768_o0_256_S577x64),
    headVec (extractStridedSlice S577x64 ![0, 320] v14 slices_S577x768_o0_320_S577x64) (extractStridedSlice S577x64 ![0, 320] v15 slices_S577x768_o0_320_S577x64) (extractStridedSlice S577x64 ![0, 320] v13 slices_S577x768_o0_320_S577x64),
    headVec (extractStridedSlice S577x64 ![0, 384] v14 slices_S577x768_o0_384_S577x64) (extractStridedSlice S577x64 ![0, 384] v15 slices_S577x768_o0_384_S577x64) (extractStridedSlice S577x64 ![0, 384] v13 slices_S577x768_o0_384_S577x64),
    headVec (extractStridedSlice S577x64 ![0, 448] v14 slices_S577x768_o0_448_S577x64) (extractStridedSlice S577x64 ![0, 448] v15 slices_S577x768_o0_448_S577x64) (extractStridedSlice S577x64 ![0, 448] v13 slices_S577x768_o0_448_S577x64),
    headVec (extractStridedSlice S577x64 ![0, 512] v14 slices_S577x768_o0_512_S577x64) (extractStridedSlice S577x64 ![0, 512] v15 slices_S577x768_o0_512_S577x64) (extractStridedSlice S577x64 ![0, 512] v13 slices_S577x768_o0_512_S577x64),
    headVec (extractStridedSlice S577x64 ![0, 576] v14 slices_S577x768_o0_576_S577x64) (extractStridedSlice S577x64 ![0, 576] v15 slices_S577x768_o0_576_S577x64) (extractStridedSlice S577x64 ![0, 576] v13 slices_S577x768_o0_576_S577x64),
    headVec (extractStridedSlice S577x64 ![0, 640] v14 slices_S577x768_o0_640_S577x64) (extractStridedSlice S577x64 ![0, 640] v15 slices_S577x768_o0_640_S577x64) (extractStridedSlice S577x64 ![0, 640] v13 slices_S577x768_o0_640_S577x64),
    headVec (extractStridedSlice S577x64 ![0, 704] v14 slices_S577x768_o0_704_S577x64) (extractStridedSlice S577x64 ![0, 704] v15 slices_S577x768_o0_704_S577x64) (extractStridedSlice S577x64 ![0, 704] v13 slices_S577x768_o0_704_S577x64)]

/-- The heads laid side by side, through the second linear map, as a 1 × 577 × 768 block. -/
def outVec (w : FVec F S768x768 .bf16) (b : FVec F S1x768 .f32) (hs : Fin 12 → FVec F S577x64 .bf16) : FVec F S1x577x768 .f32 :=
  shapeCast S1x577x768
    (addf (matmul dot_S577x768_S768x768_S577x768_1_1_0_0_n_n none
        (concatenate S577x768 1 [⟨S577x64, hs 0⟩, ⟨S577x64, hs 1⟩, ⟨S577x64, hs 2⟩, ⟨S577x64, hs 3⟩, ⟨S577x64, hs 4⟩, ⟨S577x64, hs 5⟩, ⟨S577x64, hs 6⟩, ⟨S577x64, hs 7⟩, ⟨S577x64, hs 8⟩, ⟨S577x64, hs 9⟩, ⟨S577x64, hs 10⟩, ⟨S577x64, hs 11⟩] concatenates_S577x64_S577x64_S577x64_S577x64_S577x64_S577x64_S577x64_S577x64_S577x64_S577x64_S577x64_S577x64_S577x768_d1)
        w (constant S577x768 .f32 0x00000000#32))
      (broadcastTo S577x768 b broadcasts_S1x768_S577x768))
    shapeCasts_S577x768_S1x577x768

/-- What the body stores, from its five loads. -/
def stored (v0 : Vec F S1x577x768 .bf16) (v2 : Vec F S2304x768 .bf16) (v4 : Vec F S1x2304 .f32) (v6 : Vec F S768x768 .bf16)
    (v8 : Vec F S1x768 .f32) : FVec F S1x577x768 .f32 :=
  outVec (k0_pay3 v6) (k0_pay4 v8) (heads (k0_pay6 v0 v2 v4) (k0_pay7 v0 v2 v4) (k0_pay8 v0 v2 v4))

/-- The printed chain of named values is the structured term: both unfold to the same operations. -/
theorem stored_eq (v0 : Vec F S1x577x768 .bf16) (v2 : Vec F S2304x768 .bf16) (v4 : Vec F S1x2304 .f32) (v6 : Vec F S768x768 .bf16)
    (v8 : Vec F S1x768 .f32) :
    k0_pay2 (k0_pay3 v6) (k0_pay4 v8) (k0_pay9 v0 v2 v4)
      (k0_pay13 (k0_pay10 v0 v2 v4) (k0_pay11 v0 v2 v4) (k0_pay12 v0 v2 v4))
      (k0_pay14 (k0_pay6 v0 v2 v4) (k0_pay7 v0 v2 v4) (k0_pay8 v0 v2 v4))
      (k0_pay18 (k0_pay15 (k0_pay6 v0 v2 v4)) (k0_pay16 (k0_pay7 v0 v2 v4) (k0_pay8 v0 v2 v4)) (k0_pay17 (k0_pay7 v0 v2 v4) (k0_pay8 v0 v2 v4)))
      (k0_pay19 (k0_pay6 v0 v2 v4) (k0_pay7 v0 v2 v4) (k0_pay8 v0 v2 v4))
      (k0_pay23 (k0_pay20 (k0_pay6 v0 v2 v4)) (k0_pay21 (k0_pay7 v0 v2 v4) (k0_pay8 v0 v2 v4)) (k0_pay22 (k0_pay7 v0 v2 v4) (k0_pay8 v0 v2 v4)))
      (k0_pay24 (k0_pay6 v0 v2 v4) (k0_pay7 v0 v2 v4) (k0_pay8 v0 v2 v4))
      (k0_pay25 (k0_pay6 v0 v2 v4) (k0_pay7 v0 v2 v4) (k0_pay8 v0 v2 v4))
      (k0_pay28 (k0_pay6 v0 v2 v4) (k0_pay26 (k0_pay7 v0 v2 v4)) (k0_pay27 (k0_pay8 v0 v2 v4)))
      (k0_pay29 (k0_pay6 v0 v2 v4) (k0_pay7 v0 v2 v4) (k0_pay8 v0 v2 v4))
      (k0_pay30 (k0_pay6 v0 v2 v4))
      (k0_pay31 (k0_pay7 v0 v2 v4) (k0_pay8 v0 v2 v4))
      (k0_pay1 (k0_pay6 v0 v2 v4) (k0_pay7 v0 v2 v4) (k0_pay8 v0 v2 v4))
    = stored v0 v2 v4 v6 v8 := rfl

end structured

/-! ## The structured term at an index, at the ideal values -/

section ideal

/-- The projected rows at (p, e): the block's row `p` against row `e` of the first weight, plus the bias. -/
theorem proj_apply (v0 : Vec Ideal S1x577x768 .bf16) (v2 : Vec Ideal S2304x768 .bf16) (v4 : Vec Ideal S1x2304 .f32)
    (p : Fin 577) (e : Fin 2304) :
    k0_pay5 v0 v2 v4 (ix2 p e)
      = Attn.proj (fun p d => v0 (ix3 (0 : Fin 1) p d)) (fun e d => v2 (ix2 e d)) (fun e => v4 (ix2 (0 : Fin 1) e)) p e := by
  unfold k0_pay5 Attn.proj
  refine congrArg₂ (· + ·) ?_ ?_
  · refine (NtMatmul.matmul_zero_apply 577 768 2304 none _ _ p e).trans ?_
    refine Finset.sum_congr rfl fun d _ => congrArg₂ (· * ·) ?_ ?_
    · exact shapeCast_1ab_ab_apply v0 shapeCasts_S1x577x768_S577x768 p d
    · exact congrFun (shapeCast_self v2 shapeCasts_S2304x768_S2304x768) (ix2 e d)
  · refine (broadcastTo_1b_ab_apply _ broadcasts_S1x2304_S577x2304 p e).trans ?_
    exact congrFun (shapeCast_self v4 shapeCasts_S1x2304_S1x2304) (ix2 (0 : Fin 1) e)

/-- One head on slabs cut at lane offset `o = 64 h` from the three groups, when the groups are columns
    `j`, `768 + j` and `1536 + j` of the projected rows `Yc`: head `h` of `Yc`. -/
theorem slab_head (Yc : Fin 577 → Fin 2304 → EReal) (v13 v14 v15 : FVec Ideal S577x768 .f32)
    (e13 : ∀ (p : Fin 577) (j : Fin 768) (e : Fin 2304), e.val = j.val → v13 (ix2 p j) = Yc p e)
    (e14 : ∀ (p : Fin 577) (j : Fin 768) (e : Fin 2304), e.val = 768 + j.val → v14 (ix2 p j) = Yc p e)
    (e15 : ∀ (p : Fin 577) (j : Fin 768) (e : Fin 2304), e.val = 1536 + j.val → v15 (ix2 p j) = Yc p e)
    (o : ℕ) (hs : S577x768.Slices ![0, o] S577x64) (h : Fin 12) (ho : o = 64 * h.val) (p : Fin 577) (s : Fin 64) :
    headVec (extractStridedSlice S577x64 ![0, o] v14 hs) (extractStridedSlice S577x64 ![0, o] v15 hs)
        (extractStridedSlice S577x64 ![0, o] v13 hs) (ix2 p s) = Attn.headOf Yc h p s := by
  rw [headVec_apply]
  unfold Attn.headOf
  have hq : (fun (p : Fin 577) (t : Fin 64) => extractStridedSlice S577x64 ![0, o] v14 hs (ix2 p t))
      = fun p t => Yc p (Attn.col 1 h t) := by
    funext p t
    rw [slice2_axis1_eq]
    exact e14 p _ _ (by subst ho; show 1 * 768 + h.val * 64 + t.val = 768 + (64 * h.val + t.val); omega)
  have hk : (fun (p : Fin 577) (t : Fin 64) => extractStridedSlice S577x64 ![0, o] v15 hs (ix2 p t))
      = fun p t => Yc p (Attn.col 2 h t) := by
    funext p t
    rw [slice2_axis1_eq]
    exact e15 p _ _ (by subst ho; show 2 * 768 + h.val * 64 + t.val = 1536 + (64 * h.val + t.val); omega)
  have hv : (fun (p : Fin 577) (t : Fin 64) => extractStridedSlice S577x64 ![0, o] v13 hs (ix2 p t))
      = fun p t => Yc p (Attn.col 0 h t) := by
    funext p t
    rw [slice2_axis1_eq]
    exact e13 p _ _ (by subst ho; show 0 * 768 + h.val * 64 + t.val = 64 * h.val + t.val; omega)
  rw [hq, hk, hv]

/-- Each of the twelve heads, at (p, s). -/
theorem heads_apply (Yc : Fin 577 → Fin 2304 → EReal) (v13 v14 v15 : FVec Ideal S577x768 .f32)
    (e13 : ∀ (p : Fin 577) (j : Fin 768) (e : Fin 2304), e.val = j.val → v13 (ix2 p j) = Yc p e)
    (e14 : ∀ (p : Fin 577) (j : Fin 768) (e : Fin 2304), e.val = 768 + j.val → v14 (ix2 p j) = Yc p e)
    (e15 : ∀ (p : Fin 577) (j : Fin 768) (e : Fin 2304), e.val = 1536 + j.val → v15 (ix2 p j) = Yc p e)
    (h : Fin 12) (p : Fin 577) (s : Fin 64) : heads v13 v14 v15 h (ix2 p s) = Attn.headOf Yc h p s := by
  match h with
  | ⟨0, _⟩ => exact slab_head Yc v13 v14 v15 e13 e14 e15 0 slices_S577x768_o0_0_S577x64 ⟨0, by omega⟩ rfl p s
  | ⟨1, _⟩ => exact slab_head Yc v13 v14 v15 e13 e14 e15 64 slices_S577x768_o0_64_S577x64 ⟨1, by omega⟩ rfl p s
  | ⟨2, _⟩ => exact slab_head Yc v13 v14 v15 e13 e14 e15 128 slices_S577x768_o0_128_S577x64 ⟨2, by omega⟩ rfl p s
  | ⟨3, _⟩ => exact slab_head Yc v13 v14 v15 e13 e14 e15 192 slices_S577x768_o0_192_S577x64 ⟨3, by omega⟩ rfl p s
  | ⟨4, _⟩ => exact slab_head Yc v13 v14 v15 e13 e14 e15 256 slices_S577x768_o0_256_S577x64 ⟨4, by omega⟩ rfl p s
  | ⟨5, _⟩ => exact slab_head Yc v13 v14 v15 e13 e14 e15 320 slices_S577x768_o0_320_S577x64 ⟨5, by omega⟩ rfl p s
  | ⟨6, _⟩ => exact slab_head Yc v13 v14 v15 e13 e14 e15 384 slices_S577x768_o0_384_S577x64 ⟨6, by omega⟩ rfl p s
  | ⟨7, _⟩ => exact slab_head Yc v13 v14 v15 e13 e14 e15 448 slices_S577x768_o0_448_S577x64 ⟨7, by omega⟩ rfl p s
  | ⟨8, _⟩ => exact slab_head Yc v13 v14 v15 e13 e14 e15 512 slices_S577x768_o0_512_S577x64 ⟨8, by omega⟩ rfl p s
  | ⟨9, _⟩ => exact slab_head Yc v13 v14 v15 e13 e14 e15 576 slices_S577x768_o0_576_S577x64 ⟨9, by omega⟩ rfl p s
  | ⟨10, _⟩ => exact slab_head Yc v13 v14 v15 e13 e14 e15 640 slices_S577x768_o0_640_S577x64 ⟨10, by omega⟩ rfl p s
  | ⟨11, _⟩ => exact slab_head Yc v13 v14 v15 e13 e14 e15 704 slices_S577x768_o0_704_S577x64 ⟨11, by omega⟩ rfl p s

/-- The heads side by side through the second linear map, at (0, p, e). -/
theorem outVec_apply (w : FVec Ideal S768x768 .bf16) (b : FVec Ideal S1x768 .f32) (hs : Fin 12 → FVec Ideal S577x64 .bf16)
    (p : Fin 577) (e : Fin 768) :
    outVec w b hs (ix3 (0 : Fin 1) p e)
      = Attn.proj (fun p d => hs (Attn.hd d) (ix2 p (Attn.ln d))) (fun e d => w (ix2 e d)) (fun e => b (ix2 (0 : Fin 1) e)) p e := by
  unfold outVec Attn.proj
  refine (shapeCast_ab_1ab_apply _ shapeCasts_S577x768_S1x577x768 0 p e).trans ?_
  refine congrArg₂ (· + ·) ?_ ?_
  · refine (NtMatmul.matmul_zero_apply 577 768 768 none _ w p e).trans ?_
    refine Finset.sum_congr rfl fun d _ => congrArg (· * w (ix2 e d)) ?_
    have hc' : Shape.Concatenates ((List.ofFn fun n : Fin 12 => (⟨S577x64, hs n⟩ : (s : Shape) × (s.Idx → EReal))).map (·.1))
        S577x768 (1 : Fin 2) := concatenates_S577x64_S577x64_S577x64_S577x64_S577x64_S577x64_S577x64_S577x64_S577x64_S577x64_S577x64_S577x64_S577x768_d1
    refine (congrFun (ConcatCols.concatenate_congr (t := S577x768) (1 : Fin 2)
      [⟨S577x64, hs 0⟩, ⟨S577x64, hs 1⟩, ⟨S577x64, hs 2⟩, ⟨S577x64, hs 3⟩, ⟨S577x64, hs 4⟩, ⟨S577x64, hs 5⟩, ⟨S577x64, hs 6⟩, ⟨S577x64, hs 7⟩, ⟨S577x64, hs 8⟩, ⟨S577x64, hs 9⟩, ⟨S577x64, hs 10⟩, ⟨S577x64, hs 11⟩]
      (List.ofFn fun n : Fin 12 => (⟨S577x64, hs n⟩ : (s : Shape) × (s.Idx → EReal))) rfl
      concatenates_S577x64_S577x64_S577x64_S577x64_S577x64_S577x64_S577x64_S577x64_S577x64_S577x64_S577x64_S577x64_S577x768_d1 hc') (ix2 p d)).trans ?_
    exact ConcatCols.concat_cols_apply hs hc' p d (Attn.hd d) (Attn.ln d) rfl rfl
  · exact broadcastTo_1b_ab_apply b broadcasts_S1x768_S577x768 p e

/-- **What the body stores, at (0, p, e)**: the whole layer on the loaded blocks' coordinates. -/
theorem stored_apply (v0 : Vec Ideal S1x577x768 .bf16) (v2 : Vec Ideal S2304x768 .bf16) (v4 : Vec Ideal S1x2304 .f32)
    (v6 : Vec Ideal S768x768 .bf16) (v8 : Vec Ideal S1x768 .f32) (p : Fin 577) (e : Fin 768) :
    stored v0 v2 v4 v6 v8 (ix3 (0 : Fin 1) p e)
      = Attn.attn (fun p d => v0 (ix3 (0 : Fin 1) p d)) (fun e d => v2 (ix2 e d)) (fun e => v4 (ix2 (0 : Fin 1) e))
          (fun e d => v6 (ix2 e d)) (fun e => v8 (ix2 (0 : Fin 1) e)) p e := by
  unfold stored Attn.attn
  rw [outVec_apply]
  have e13 : ∀ (p : Fin 577) (j : Fin 768) (e : Fin 2304), e.val = j.val → k0_pay6 v0 v2 v4 (ix2 p j)
      = Attn.proj (fun p d => v0 (ix3 (0 : Fin 1) p d)) (fun e d => v2 (ix2 e d)) (fun e => v4 (ix2 (0 : Fin 1) e)) p e := by
    intro p j e he
    unfold k0_pay6
    rw [slice2_axis1_eq, proj_apply]
    exact congrArg _ (Fin.ext (by rw [he]; exact Nat.zero_add _))
  have e14 : ∀ (p : Fin 577) (j : Fin 768) (e : Fin 2304), e.val = 768 + j.val → k0_pay7 v0 v2 v4 (ix2 p j)
      = Attn.proj (fun p d => v0 (ix3 (0 : Fin 1) p d)) (fun e d => v2 (ix2 e d)) (fun e => v4 (ix2 (0 : Fin 1) e)) p e := by
    intro p j e he
    unfold k0_pay7
    rw [slice2_axis1_eq, proj_apply]
    exact congrArg _ (Fin.ext he.symm)
  have e15 : ∀ (p : Fin 577) (j : Fin 768) (e : Fin 2304), e.val = 1536 + j.val → k0_pay8 v0 v2 v4 (ix2 p j)
      = Attn.proj (fun p d => v0 (ix3 (0 : Fin 1) p d)) (fun e d => v2 (ix2 e d)) (fun e => v4 (ix2 (0 : Fin 1) e)) p e := by
    intro p j e he
    unfold k0_pay8
    rw [slice2_axis1_eq, proj_apply]
    exact congrArg _ (Fin.ext he.symm)
  have hh : (fun (p : Fin 577) (d : Fin 768) =>
        heads (k0_pay6 v0 v2 v4) (k0_pay7 v0 v2 v4) (k0_pay8 v0 v2 v4) (Attn.hd d) (ix2 p (Attn.ln d)))
      = fun p d => Attn.headOf (Attn.proj (fun p d => v0 (ix3 (0 : Fin 1) p d)) (fun e d => v2 (ix2 e d))
          (fun e => v4 (ix2 (0 : Fin 1) e))) (Attn.hd d) p (Attn.ln d) := by
    funext p d
    exact heads_apply _ _ _ _ e13 e14 e15 (Attn.hd d) p (Attn.ln d)
  have hw : (fun (e : Fin 768) (d : Fin 768) => k0_pay3 v6 (ix2 e d)) = fun e d => v6 (ix2 e d) := by
    funext e d
    exact congrFun (shapeCast_self v6 shapeCasts_S768x768_S768x768) (ix2 e d)
  have hb : (fun (e : Fin 768) => k0_pay4 v8 (ix2 (0 : Fin 1) e)) = fun e => v8 (ix2 (0 : Fin 1) e) := by
    funext e
    exact congrFun (shapeCast_self v8 shapeCasts_S1x768_S1x768) (ix2 (0 : Fin 1) e)
  rw [hh, hw, hb]

end ideal

end Cert.KernelIdeal.Payload

end
-- ==== Proof.SpecArr.lean ====
/-
  The layer on whole arrays: entry (b, p, e) of the result is `Attn.attn` of batch entry `b`'s rows, the two weight
  matrices and the two bias vectors, read by coordinates. This is the one function both programs are shown to compute.
-/
import proofs.«168642_j24395414241982_2_alg».proof.Proof.Spec
import Idealize.ShloMosaic.Lib.ValueIdx

noncomputable section

namespace Cert.Attn

open Idealize.ShloMosaic Idealize.ShloMosaic.ValueIdx

/-- The result array as one function of the five argument arrays. -/
def layer (x0 : FVec Ideal ⟨3, ![32, 577, 768]⟩ .f32) (x1 : FVec Ideal ⟨2, ![2304, 768]⟩ .f32) (x2 : FVec Ideal ⟨1, ![2304]⟩ .f32)
    (x3 : FVec Ideal ⟨2, ![768, 768]⟩ .f32) (x4 : FVec Ideal ⟨1, ![768]⟩ .f32) : FVec Ideal ⟨3, ![32, 577, 768]⟩ .f32 :=
  fun i => attn (fun p d => x0 (ix3 (i 0) p d)) (fun e d => x1 (ix2 e d)) (fun e => x2 (ix1 e)) (fun e d => x3 (ix2 e d))
    (fun e => x4 (ix1 e)) (i 1) (i 2)

theorem layer_apply (x0 : FVec Ideal ⟨3, ![32, 577, 768]⟩ .f32) (x1 : FVec Ideal ⟨2, ![2304, 768]⟩ .f32)
    (x2 : FVec Ideal ⟨1, ![2304]⟩ .f32) (x3 : FVec Ideal ⟨2, ![768, 768]⟩ .f32) (x4 : FVec Ideal ⟨1, ![768]⟩ .f32)
    (b : Fin 32) (p : Fin 577) (e : Fin 768) :
    layer x0 x1 x2 x3 x4 (ix3 b p e)
      = attn (fun p d => x0 (ix3 b p d)) (fun e d => x1 (ix2 e d)) (fun e => x2 (ix1 e)) (fun e d => x3 (ix2 e d))
          (fun e => x4 (ix1 e)) p e := rfl

end Cert.Attn

end
-- ==== Proof.KernelValue.lean ====
/-
  From blocks to the array: the kernel's result array after its run is the layer of the argument arrays.

  Grid point `t` (one per batch entry) stages block `t` of the rows — rows (t, ·, ·) of the first argument, which the
  host's change of float format leaves as they are at the ideal values —, the two weight matrices whole, and the two
  bias vectors as 1 × n rows (the host's reshape), runs the body, and writes the stored 1 × 577 × 768 block back at
  (t, ·, ·). By Payload the stored block at (0, p, e) is `Attn.attn` of the staged blocks' coordinates, that is, entry
  (t, p, e) of `Attn.layer` of the arguments. The 32 blocks tile the result array (entry (b, p, e) is in block `b`), so
  the array ends holding `Attn.layer` everywhere.
-/
import proofs.«168642_j24395414241982_2_alg».proof.Proof.Gen.KernelIdeal.Value
import proofs.«168642_j24395414241982_2_alg».proof.Proof.Payload
import proofs.«168642_j24395414241982_2_alg».proof.Proof.SpecArr
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The result array as one function of the argument arrays. -/
abbrev result (c : Dev nD) : S32x577x768.Idx → EReal :=
  Attn.layer (m ((c : Thread nD τ).loc main_arg0)) (m ((c : Thread nD τ).loc main_arg1)) (m ((c : Thread nD τ).loc main_arg2))
    (m ((c : Thread nD τ).loc main_arg3)) (m ((c : Thread nD τ).loc main_arg4))

/-! ## The arrays the region finds -/

/-- A change of float format is the identity at the ideal values: the staged rows are the first argument. -/
theorem V_rows (c : Dev nD) : (V m c main_v0 : S32x577x768.Idx → EReal) = m ((c : Thread nD τ).loc main_arg0) := by
  dsimp only [Gen.V, Gen.hostOps0]; after_results; rfl

theorem V_w1 (c : Dev nD) : (V m c main_v1 : S2304x768.Idx → EReal) = m ((c : Thread nD τ).loc main_arg1) := by
  dsimp only [Gen.V, Gen.hostOps0]; after_results; rfl

theorem V_w2 (c : Dev nD) : (V m c main_v2 : S768x768.Idx → EReal) = m ((c : Thread nD τ).loc main_arg3) := by
  dsimp only [Gen.V, Gen.hostOps0]; after_results; rfl

/-- The first bias as a 1 × 2304 row. -/
theorem V_b1 (c : Dev nD) : (V m c main_v3 : S1x2304.Idx → EReal)
    = shapeCast S1x2304 (m ((c : Thread nD τ).loc main_arg2) : S2304.Idx → EReal) shapeCasts_S2304_S1x2304 := by
  dsimp only [Gen.V, Gen.hostOps0]; after_results; rfl

/-- The second bias as a 1 × 768 row. -/
theorem V_b2 (c : Dev nD) : (V m c main_v4 : S1x768.Idx → EReal)
    = shapeCast S1x768 (m ((c : Thread nD τ).loc main_arg4) : S768.Idx → EReal) shapeCasts_S768_S1x768 := by
  dsimp only [Gen.V, Gen.hostOps0]; after_results; rfl

/-! ## The windows' blocks -/

/-- The printed index maps over the grid: the rows' and the result's block index is (t, 0, 0), every other window's is
    (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point as a batch entry. -/
def batch (t : Fin cfg0.N) : Fin 32 := ⟨t.val, lt_of_lt_of_eq t.isLt N_0⟩

/-- The staged rows at point `t`: rows (t, ·, ·) of the first argument. -/
theorem rows_apply (c : Dev nD) (t : Fin cfg0.N) (p : Fin 577) (d : Fin 768) :
    iblk m c 0 t (ix3 (0 : Fin 1) p d)
      = (m ((c : Thread nD τ).loc main_arg0) : S32x577x768.Idx → EReal) (ix3 (batch t) p d) := by
  show (V m c main_v0 : S32x577x768.Idx → EReal) (((cfg0.win 0).blk t).view.emb (ix3 (0 : Fin 1) p d)) = _
  rw [V_rows]
  refine congrArg _ ?_
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 577 + 1 * p.val = p.val; omega
  | ⟨2, _⟩ => show win0_0.index t (2 : Fin 3) * 768 + 1 * d.val = d.val; omega

/-- The first weight, staged whole. -/
theorem w1_apply (c : Dev nD) (t : Fin cfg0.N) (e : Fin 2304) (d : Fin 768) :
    iblk m c 1 t (ix2 e d) = (m ((c : Thread nD τ).loc main_arg1) : S2304x768.Idx → EReal) (ix2 e d) := by
  show (V m c main_v1 : S2304x768.Idx → EReal) (((cfg0.win 1).blk t).view.emb (ix2 e d)) = _
  rw [V_w1]
  refine congrArg _ ?_
  obtain ⟨-, -, -, e0, e1, -⟩ := idx_facts t
  funext a; apply Fin.ext
  match a with
  | ⟨0, _⟩ => show win0_1.index t (0 : Fin 2) * 2304 + 1 * e.val = e.val; omega
  | ⟨1, _⟩ => show win0_1.index t (1 : Fin 2) * 768 + 1 * d.val = d.val; omega

/-- The first bias, staged as its one row. -/
theorem b1_apply (c : Dev nD) (t : Fin cfg0.N) (e : Fin 2304) :
    iblk m c 2 t (ix2 (0 : Fin 1) e) = (m ((c : Thread nD τ).loc main_arg2) : S2304.Idx → EReal) (ix1 e) := by
  show (V m c main_v3 : S1x2304.Idx → EReal) (((cfg0.win 2).blk t).view.emb (ix2 (0 : Fin 1) e)) = _
  rw [V_b1]
  refine Eq.trans (congrArg _ ?_) (shapeCast_a_1a_apply _ shapeCasts_S2304_S1x2304 (0 : Fin 1) e)
  obtain ⟨-, -, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 2304 + 1 * e.val = e.val; omega

/-- The second weight, staged whole. -/
theorem w2_apply (c : Dev nD) (t : Fin cfg0.N) (e : Fin 768) (d : Fin 768) :
    iblk m c 3 t (ix2 e d) = (m ((c : Thread nD τ).loc main_arg3) : S768x768.Idx → EReal) (ix2 e d) := by
  show (V m c main_v2 : S768x768.Idx → EReal) (((cfg0.win 3).blk t).view.emb (ix2 e d)) = _
  rw [V_w2]
  refine congrArg _ ?_
  obtain ⟨-, -, -, -, -, -, -, e0, e1, -⟩ := idx_facts t
  funext a; apply Fin.ext
  match a with
  | ⟨0, _⟩ => show win0_3.index t (0 : Fin 2) * 768 + 1 * e.val = e.val; omega
  | ⟨1, _⟩ => show win0_3.index t (1 : Fin 2) * 768 + 1 * d.val = d.val; omega

/-- The second bias, staged as its one row. -/
theorem b2_apply (c : Dev nD) (t : Fin cfg0.N) (e : Fin 768) :
    iblk m c 4 t (ix2 (0 : Fin 1) e) = (m ((c : Thread nD τ).loc main_arg4) : S768.Idx → EReal) (ix1 e) := by
  show (V m c main_v4 : S1x768.Idx → EReal) (((cfg0.win 4).blk t).view.emb (ix2 (0 : Fin 1) e)) = _
  rw [V_b2]
  refine Eq.trans (congrArg _ ?_) (shapeCast_a_1a_apply _ shapeCasts_S768_S1x768 (0 : Fin 1) e)
  obtain ⟨-, -, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 768 + 1 * e.val = e.val; omega

/-! ## What each point writes back, and the whole array -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` writes back block `t` of the layer of the arguments. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz3]
  simp only [View.ld_unit_zero (S := S1x577x768) hz3, View.ld_unit_zero (S := S2304x768) hz2, View.ld_unit_zero (S := S1x2304) hz2,
    View.ld_unit_zero (S := S768x768) hz2, View.ld_unit_zero (S := S1x768) hz2]
  rw [Payload.stored_eq]
  refine funext fun (y : S1x577x768.Idx) => ?_
  obtain ⟨u, p, e, rfl⟩ : ∃ (u : Fin 1) (p : Fin 577) (e : Fin 768), y = ix3 u p e := ⟨y 0, y 1, y 2, eq_ix3 y⟩
  obtain rfl : u = 0 := Subsingleton.elim _ _
  show Payload.stored (iblk m c 0 t) (iblk m c 1 t) (iblk m c 2 t) (iblk m c 3 t) (iblk m c 4 t) (ix3 (0 : Fin 1) p e)
    = result m c (((cfg0.win 5).blk t).view.emb (ix3 (0 : Fin 1) p e))
  have hemb : ((cfg0.win 5).blk t).view.emb (ix3 (0 : Fin 1) p e) = ix3 (batch t) p e := by
    obtain ⟨-, -, -, -, -, -, -, -, -, -, -, e0, e1, e2⟩ := idx_facts t
    funext a; apply Fin.ext
    match a with
    | ⟨0, _⟩ => show win0_5.index t (0 : Fin 3) * 1 + 1 * 0 = t.val; omega
    | ⟨1, _⟩ => show win0_5.index t (1 : Fin 3) * 577 + 1 * p.val = p.val; omega
    | ⟨2, _⟩ => show win0_5.index t (2 : Fin 3) * 768 + 1 * e.val = e.val; omega
  rw [hemb]
  refine (Payload.stored_apply (iblk m c 0 t) (iblk m c 1 t) (iblk m c 2 t) (iblk m c 3 t) (iblk m c 4 t) p e).trans ?_
  rw [show result m c (ix3 (batch t) p e) = _ from Attn.layer_apply _ _ _ _ _ (batch t) p e]
  have h0 : (fun (p : Fin 577) (d : Fin 768) => iblk m c 0 t (ix3 (0 : Fin 1) p d))
      = fun p d => (m ((c : Thread nD τ).loc main_arg0) : S32x577x768.Idx → EReal) (ix3 (batch t) p d) :=
    funext fun p => funext fun d => rows_apply m c t p d
  have h1 : (fun (e : Fin 2304) (d : Fin 768) => iblk m c 1 t (ix2 e d))
      = fun e d => (m ((c : Thread nD τ).loc main_arg1) : S2304x768.Idx → EReal) (ix2 e d) :=
    funext fun e => funext fun d => w1_apply m c t e d
  have h2 : (fun (e : Fin 2304) => iblk m c 2 t (ix2 (0 : Fin 1) e))
      = fun e => (m ((c : Thread nD τ).loc main_arg2) : S2304.Idx → EReal) (ix1 e) :=
    funext fun e => b1_apply m c t e
  have h3 : (fun (e : Fin 768) (d : Fin 768) => iblk m c 3 t (ix2 e d))
      = fun e d => (m ((c : Thread nD τ).loc main_arg3) : S768x768.Idx → EReal) (ix2 e d) :=
    funext fun e => funext fun d => w2_apply m c t e d
  have h4 : (fun (e : Fin 768) => iblk m c 4 t (ix2 (0 : Fin 1) e))
      = fun e => (m ((c : Thread nD τ).loc main_arg4) : S768.Idx → EReal) (ix1 e) :=
    funext fun e => b2_apply m c t e
  rw [h0, h1, h2, h3, h4]

/-- An index of the result array is in point `t`'s block iff each coordinate is in the block's range on its axis. -/
theorem mem_blk (t : Fin cfg0.N) (i : S32x577x768.Idx) :
    i ∈ ((cfg0.win 5).blk t).view.set ↔ ∀ a : Fin 3, win0_5.index t a * S1x577x768.size a ≤ (i a).val
      ∧ (i a).val < win0_5.index t a * S1x577x768.size a + S1x577x768.size a := by
  show i ∈ ((View.whole main_v5).slice (win0_5.rect t)).set ↔ _
  rw [View.set_slice_whole, Rect.mem_set_unit]
  exact Iff.rfl

/-- Entry (b, ·, ·) is in the block of point `b`: the 32 blocks tile the array. -/
theorem cover (i : S32x577x768.Idx) :
    ∃ t : Fin cfg0.N, (cfg0.win 5).flush t = true ∧ i ∈ ((cfg0.win 5).blk t).view.set := by
  have h0 : (i 0).val < 32 := (i 0).isLt
  have h1 : (i 1).val < 577 := (i 1).isLt
  have h2 : (i 2).val < 768 := (i 2).isLt
  let t : Fin cfg0.N := ⟨(i 0).val, lt_of_lt_of_eq h0 N_0.symm⟩
  obtain ⟨-, -, -, -, -, -, -, -, -, -, -, e0, e1, e2⟩ := idx_facts t
  have ht : t.val = (i 0).val := rfl
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 577 ≤ (i 1).val ∧ (i 1).val < win0_5.index t (1 : Fin 3) * 577 + 577; omega
  | ⟨2, _⟩ => show win0_5.index t (2 : Fin 3) * 768 ≤ (i 2).val ∧ (i 2).val < win0_5.index t (2 : Fin 3) * 768 + 768; omega

/-- The result array after the run is the layer of the arguments. -/
theorem final (c : Dev nD) : (dats m 0 c).arrAt 5 cfg0.N = result m c :=
  (dats m 0 c).arrAt_eq_of_cover 5 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.RefAt.lean ====
/-
  The reference read at coordinates: every stage of its run, index by index, in the words of Spec.

  The reference projects all 32 × 577 rows at once, views the 2304 columns as 3 × 12 × 64, takes the three groups apart
  and moves the head axis in front of the row axis; scores, softmax and the weighted values are batched over
  (batch entry, head); the result goes back to rows × 768 columns and through the second linear map. Each lemma below
  reads one stage at an index built from coordinates and lands on the corresponding function of Spec at batch entry
  `b`. The only arithmetic is the position of a coordinate tuple in a row-major reshape (linear, with divisions by
  literals), and two facts about the start values of the row reductions: the largest score is folded from −∞, so
  taking the maximum with −∞ once more changes nothing, and the sum starts from the word of zero.
-/
import proofs.«168642_j24395414241982_2_alg».proof.Proof.Gen.ReferenceIdeal.Read
import proofs.«168642_j24395414241982_2_alg».proof.Proof.SpecArr
import Idealize.ShloMosaic.Lib.ValueIdx
import Idealize.ShloMosaic.PureOps.Ideal.Laws

noncomputable section

namespace Cert.ReferenceIdeal.RefAt

open Idealize.ShloMosaic Idealize.ShloMosaic.ValueIdx Cert.ReferenceIdeal Cert.ReferenceIdeal.Gen Cert.ReferenceIdeal.Read

variable (x0 : (⟨S32x577x768, .f32⟩ : BufTy).Contents (Elt Ideal)) (x1 : (⟨S2304x768, .f32⟩ : BufTy).Contents (Elt Ideal))
  (x2 : (⟨S2304, .f32⟩ : BufTy).Contents (Elt Ideal))

/-- Batch entry `b`'s projected rows. -/
def Y (b : Fin 32) : Fin 577 → Fin 2304 → EReal :=
  Attn.proj (fun p d => x0 (ix3 b p d)) (fun e d => x1 (ix2 e d)) (fun e => x2 (ix1 e))

/-! ## Positions in the row-major reshapes -/

theorem idx4_at (b : Fin 32) (p : Fin 577) (c : Fin 3) (h : Fin 12) (s : Fin 64) :
    idx_main_v4 (ix5 b p c h s) = ix3 b p (Attn.col c h s) := by
  have := b.isLt; have := p.isLt; have := c.isLt; have := h.isLt; have := s.isLt
  funext a
  match a with
  | ⟨0, _⟩ => exact Fin.ext (by show ((((b.val * 577 + p.val) * 3 + c.val) * 12 + h.val) * 64 + s.val) / 1329408 = b.val; omega)
  | ⟨1, _⟩ => exact Fin.ext (by show ((((b.val * 577 + p.val) * 3 + c.val) * 12 + h.val) * 64 + s.val) / 2304 % 577 = p.val; omega)
  | ⟨2, _⟩ => exact Fin.ext (by show ((((b.val * 577 + p.val) * 3 + c.val) * 12 + h.val) * 64 + s.val) % 2304 = c.val * 768 + h.val * 64 + s.val; omega)

/-- Dropping the unit axis left by cutting one of the three groups out. -/
theorem idx_unit_at (b : Fin 32) (p : Fin 577) (h : Fin 12) (s : Fin 64) :
    idx_main_v6 (ix4 b p h s) = ix5 b p (0 : Fin 1) h s := by
  have := b.isLt; have := p.isLt; have := h.isLt; have := s.isLt
  funext a
  match a with
  | ⟨0, _⟩ => exact Fin.ext (by show (((b.val * 577 + p.val) * 12 + h.val) * 64 + s.val) / 443136 = b.val; omega)
  | ⟨1, _⟩ => exact Fin.ext (by show (((b.val * 577 + p.val) * 12 + h.val) * 64 + s.val) / 768 % 577 = p.val; omega)
  | ⟨2, _⟩ => rfl
  | ⟨3, _⟩ => exact Fin.ext (by show (((b.val * 577 + p.val) * 12 + h.val) * 64 + s.val) / 64 % 12 = h.val; omega)
  | ⟨4, _⟩ => exact Fin.ext (by show (((b.val * 577 + p.val) * 12 + h.val) * 64 + s.val) % 64 = s.val; omega)

theorem idx30_at (b : Fin 32) (p : Fin 577) (d : Fin 768) :
    idx_main_v30 (ix3 b p d) = ix4 b p (Attn.hd d) (Attn.ln d) := by
  have := b.isLt; have := p.isLt; have := d.isLt
  funext a
  match a with
  | ⟨0, _⟩ => exact Fin.ext (by show ((b.val * 577 + p.val) * 768 + d.val) / 443136 = b.val; omega)
  | ⟨1, _⟩ => exact Fin.ext (by show ((b.val * 577 + p.val) * 768 + d.val) / 768 % 577 = p.val; omega)
  | ⟨2, _⟩ => exact Fin.ext (by show ((b.val * 577 + p.val) * 768 + d.val) / 64 % 12 = d.val / 64; omega)
  | ⟨3, _⟩ => exact Fin.ext (by show ((b.val * 577 + p.val) * 768 + d.val) % 64 = d.val % 64; omega)

/-! ## The projection and its three groups -/

theorem v3_at (b : Fin 32) (p : Fin 577) (e : Fin 2304) :
    val_main_v3 (F := Ideal) x0 x1 x2 (ix3 b p e) = Y x0 x1 x2 b p e := by
  rw [val_main_v3_apply, val_main_v0_apply, val_main_v2_apply, val_main_v1_apply]
  unfold Y Attn.proj
  refine congrArg₂ (· + ·) (Finset.sum_congr rfl fun k _ => congrArg₂ (· * ·) (congrArg x0 ?_) (congrArg x1 ?_)) (congrArg x2 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

theorem v4_at (b : Fin 32) (p : Fin 577) (c : Fin 3) (h : Fin 12) (s : Fin 64) :
    val_main_v4 (F := Ideal) x0 x1 x2 (ix5 b p c h s) = Y x0 x1 x2 b p (Attn.col c h s) := by
  rw [val_main_v4_apply, idx4_at, v3_at]

/-- The values (group 0), with the head axis in front of the rows. -/
theorem v7_at (b : Fin 32) (h : Fin 12) (p : Fin 577) (s : Fin 64) :
    val_main_v7 (F := Ideal) x0 x1 x2 (ix4 b h p s) = Y x0 x1 x2 b p (Attn.col 0 h s) := by
  rw [val_main_v7_apply, show idx_main_v7 (ix4 b h p s) = ix4 b p h s from
      funext fun a => by match a with | ⟨0, _⟩ => rfl | ⟨1, _⟩ => rfl | ⟨2, _⟩ => rfl | ⟨3, _⟩ => rfl,
    val_main_v6_apply, idx_unit_at, val_main_v5_apply,
    show idx_main_v5 (ix5 b p (0 : Fin 1) h s) = ix5 b p (0 : Fin 3) h s from
      funext fun a => by match a with | ⟨0, _⟩ => rfl | ⟨1, _⟩ => rfl | ⟨2, _⟩ => rfl | ⟨3, _⟩ => rfl | ⟨4, _⟩ => rfl,
    v4_at]

/-- The queries (group 1). -/
theorem v10_at (b : Fin 32) (h : Fin 12) (p : Fin 577) (s : Fin 64) :
    val_main_v10 (F := Ideal) x0 x1 x2 (ix4 b h p s) = Y x0 x1 x2 b p (Attn.col 1 h s) := by
  rw [val_main_v10_apply, show idx_main_v10 (ix4 b h p s) = ix4 b p h s from
      funext fun a => by match a with | ⟨0, _⟩ => rfl | ⟨1, _⟩ => rfl | ⟨2, _⟩ => rfl | ⟨3, _⟩ => rfl,
    val_main_v9_apply, show idx_main_v9 (ix4 b p h s) = ix5 b p (0 : Fin 1) h s from idx_unit_at b p h s, val_main_v8_apply,
    show idx_main_v8 (ix5 b p (0 : Fin 1) h s) = ix5 b p (1 : Fin 3) h s from
      funext fun a => by match a with | ⟨0, _⟩ => rfl | ⟨1, _⟩ => rfl | ⟨2, _⟩ => rfl | ⟨3, _⟩ => rfl | ⟨4, _⟩ => rfl,
    v4_at]

/-- The keys (group 2). -/
theorem v13_at (b : Fin 32) (h : Fin 12) (p : Fin 577) (s : Fin 64) :
    val_main_v13 (F := Ideal) x0 x1 x2 (ix4 b h p s) = Y x0 x1 x2 b p (Attn.col 2 h s) := by
  rw [val_main_v13_apply, show idx_main_v13 (ix4 b h p s) = ix4 b p h s from
      funext fun a => by match a with | ⟨0, _⟩ => rfl | ⟨1, _⟩ => rfl | ⟨2, _⟩ => rfl | ⟨3, _⟩ => rfl,
    val_main_v12_apply, show idx_main_v12 (ix4 b p h s) = ix5 b p (0 : Fin 1) h s from idx_unit_at b p h s, val_main_v11_apply,
    show idx_main_v11 (ix5 b p (0 : Fin 1) h s) = ix5 b p (2 : Fin 3) h s from
      funext fun a => by match a with | ⟨0, _⟩ => rfl | ⟨1, _⟩ => rfl | ⟨2, _⟩ => rfl | ⟨3, _⟩ => rfl | ⟨4, _⟩ => rfl,
    v4_at]

/-! ## One head: scores, softmax, weighted values -/

/-- Head `h`'s queries, keys and values of batch entry `b`, by (row, lane). -/
abbrev Q (b : Fin 32) (h : Fin 12) : Fin 577 → Fin 64 → EReal := fun p t => Y x0 x1 x2 b p (Attn.col 1 h t)
abbrev K (b : Fin 32) (h : Fin 12) : Fin 577 → Fin 64 → EReal := fun p t => Y x0 x1 x2 b p (Attn.col 2 h t)
abbrev V (b : Fin 32) (h : Fin 12) : Fin 577 → Fin 64 → EReal := fun p t => Y x0 x1 x2 b p (Attn.col 0 h t)

theorem v16_at (b : Fin 32) (h : Fin 12) (p r : Fin 577) :
    val_main_v16 (F := Ideal) x0 x1 x2 (ix4 b h p r) = Attn.score (Q x0 x1 x2 b h) (K x0 x1 x2 b h) p r := by
  rw [val_main_v16_apply, val_main_v14_apply, val_main_v15_apply, val_main_cst_apply]
  unfold Attn.score
  refine congrArg (· * Attn.scaleW) (Finset.sum_congr rfl fun k _ => ?_)
  rw [show lidx_main_v14 (ix4 b h p r) k = ix4 b h p k from
      funext fun a => by match a with | ⟨0, _⟩ => rfl | ⟨1, _⟩ => rfl | ⟨2, _⟩ => rfl | ⟨3, _⟩ => rfl,
    show ridx_main_v14 (ix4 b h p r) k = ix4 b h r k from
      funext fun a => by match a with | ⟨0, _⟩ => rfl | ⟨1, _⟩ => rfl | ⟨2, _⟩ => rfl | ⟨3, _⟩ => rfl,
    v10_at, v13_at]

/-- The row's largest score: the host's reduce folds max from −∞ over the row, and the maximum with −∞ taken once
    more leaves it unchanged. -/
theorem v19_at (b : Fin 32) (h : Fin 12) (p : Fin 577) :
    val_main_v19 (F := Ideal) x0 x1 x2 (ix3 b h p) = Attn.rowMax (Q x0 x1 x2 b h) (K x0 x1 x2 b h) p := by
  have hfold : val_main_v17 (F := Ideal) x0 x1 x2 (ix3 b h p) = Attn.rowMax (Q x0 x1 x2 b h) (K x0 x1 x2 b h) p := by
    unfold val_main_v17 Attn.rowMax
    refine (Host.reduce_eq_fold_single FloatOps.maximumf _ _ reducesTo_S32x12x577x577_S32x12x577_d3 (by decide) h_S_ (ix3 b h p)).trans ?_
    refine congrArg (fun f => (Finset.univ : Finset (Fin 577)).fold max Attn.negInfW f) ?_
    funext r
    refine Eq.trans (congrArg (val_main_v16 (F := Ideal) x0 x1 x2) ?_) (v16_at x0 x1 x2 b h p r)
    funext a
    apply Fin.ext
    match a with | ⟨0, _⟩ => rfl | ⟨1, _⟩ => rfl | ⟨2, _⟩ => rfl | ⟨3, _⟩ => rfl
  rw [val_main_v19_apply, hfold, val_main_v18_apply, val_main_cst_1_apply]
  show max Attn.negInfW (Attn.rowMax (Q x0 x1 x2 b h) (K x0 x1 x2 b h) p) = _
  exact max_eq_right ((Finset.le_fold_max _).mpr (Or.inl le_rfl))

theorem v23_at (b : Fin 32) (h : Fin 12) (p r : Fin 577) :
    val_main_v23 (F := Ideal) x0 x1 x2 (ix4 b h p r) = Attn.expo (Q x0 x1 x2 b h) (K x0 x1 x2 b h) p r := by
  rw [val_main_v23_apply, val_main_v22_apply, val_main_v21_apply, val_main_v20_apply, v16_at,
    show idx_main_v20 (idx_main_v21 (ix4 b h p r)) = ix3 b h p from
      funext fun a => by match a with | ⟨0, _⟩ => rfl | ⟨1, _⟩ => rfl | ⟨2, _⟩ => rfl,
    v19_at]
  rfl

/-- The row's sum of exponentials: the host's sum starts from the word of zero. -/
theorem v24_at (b : Fin 32) (h : Fin 12) (p : Fin 577) :
    val_main_v24 (F := Ideal) x0 x1 x2 (ix3 b h p) = ∑ r : Fin 577, Attn.expo (Q x0 x1 x2 b h) (K x0 x1 x2 b h) p r := by
  rw [val_main_v24_apply, val_main_cst_2_apply]
  show Ideal.ofBits .f32 0x00000000#32 + _ = _
  rw [Ideal.ofBits_zero_f32, zero_add]
  refine Finset.sum_congr rfl fun r _ => ?_
  rw [show idx_main_v24 (ix3 b h p) r = ix4 b h p r from
      funext fun a => by match a with | ⟨0, _⟩ => rfl | ⟨1, _⟩ => rfl | ⟨2, _⟩ => rfl | ⟨3, _⟩ => rfl,
    v23_at]

theorem v27_at (b : Fin 32) (h : Fin 12) (p r : Fin 577) :
    val_main_v27 (F := Ideal) x0 x1 x2 (ix4 b h p r) = Attn.weight (Q x0 x1 x2 b h) (K x0 x1 x2 b h) p r := by
  rw [val_main_v27_apply, val_main_v26_apply, val_main_v25_apply, v23_at,
    show idx_main_v25 (idx_main_v26 (ix4 b h p r)) = ix3 b h p from
      funext fun a => by match a with | ⟨0, _⟩ => rfl | ⟨1, _⟩ => rfl | ⟨2, _⟩ => rfl,
    v24_at]
  rfl

theorem v28_at (b : Fin 32) (h : Fin 12) (p : Fin 577) (s : Fin 64) :
    val_main_v28 (F := Ideal) x0 x1 x2 (ix4 b h p s) = Attn.headOf (Y x0 x1 x2 b) h p s := by
  rw [val_main_v28_apply]
  unfold Attn.headOf Attn.head
  refine Finset.sum_congr rfl fun r _ => ?_
  rw [show lidx_main_v28 (ix4 b h p s) r = ix4 b h p r from
      funext fun a => by match a with | ⟨0, _⟩ => rfl | ⟨1, _⟩ => rfl | ⟨2, _⟩ => rfl | ⟨3, _⟩ => rfl,
    show ridx_main_v28 (ix4 b h p s) r = ix4 b h r s from
      funext fun a => by match a with | ⟨0, _⟩ => rfl | ⟨1, _⟩ => rfl | ⟨2, _⟩ => rfl | ⟨3, _⟩ => rfl,
    v27_at, v7_at]

/-! ## The heads side by side and the second linear map -/

theorem v30_at (b : Fin 32) (p : Fin 577) (d : Fin 768) :
    val_main_v30 (F := Ideal) x0 x1 x2 (ix3 b p d) = Attn.headOf (Y x0 x1 x2 b) (Attn.hd d) p (Attn.ln d) := by
  rw [val_main_v30_apply, idx30_at, val_main_v29_apply,
    show idx_main_v29 (ix4 b p (Attn.hd d) (Attn.ln d)) = ix4 b (Attn.hd d) p (Attn.ln d) from
      funext fun a => by match a with | ⟨0, _⟩ => rfl | ⟨1, _⟩ => rfl | ⟨2, _⟩ => rfl | ⟨3, _⟩ => rfl,
    v28_at]

/-- **The reference's result is the layer.** -/
theorem result_eq (x3 : (⟨S768x768, .f32⟩ : BufTy).Contents (Elt Ideal)) (x4 : (⟨S768, .f32⟩ : BufTy).Contents (Elt Ideal)) :
    val_main_v34 (F := Ideal) x0 x1 x2 x3 x4 = Attn.layer x0 x1 x2 x3 x4 := by
  funext i
  obtain ⟨b, p, e, rfl⟩ : ∃ (b : Fin 32) (p : Fin 577) (e : Fin 768), i = ix3 b p e := ⟨i 0, i 1, i 2, eq_ix3 i⟩
  rw [Attn.layer_apply, val_main_v34_apply, val_main_v31_apply, val_main_v33_apply, val_main_v32_apply]
  unfold Attn.attn
  show _ + _ = Attn.proj _ _ _ p e
  unfold Attn.proj
  refine congrArg₂ (· + ·) (Finset.sum_congr rfl fun d _ => ?_) (congrArg x4 ?_)
  · rw [show lidx_main_v31 (ix3 b p e) d = ix3 b p d from
        funext fun a => by match a with | ⟨0, _⟩ => rfl | ⟨1, _⟩ => rfl | ⟨2, _⟩ => rfl,
      show ridx_main_v31 (ix3 b p e) d = ix2 e d from
        funext fun a => by match a with | ⟨0, _⟩ => rfl | ⟨1, _⟩ => rfl,
      v30_at]
    rfl
  · funext a; match a with | ⟨0, _⟩ => rfl

end Cert.ReferenceIdeal.RefAt

end
-- ==== Proof.lean ====
/-
  The certificate of a twelve-head softmax attention layer (32 batch entries of 577 rows and 768 features) computed by one
  kernel launch per batch entry, against its batched reference.

  At the ideal values both programs compute the same function of the five arguments, `Attn.layer` (Proof/Spec.lean,
  Proof/SpecArr.lean): project each row to 2304 columns, attend head by head with the same scale word on the scores,
  lay the heads side by side, project again. The kernel's roundings to bf16 and the host's changes of float format are
  the identity there; its matrix products into zero accumulators and the reference's contractions are the same sums over
  a `Fin`; its row maxima and row sums and the reference's reductions are the same fold and the same sum; the layouts
  differ (slabs of 64 lanes cut from a 577 × 2304 block, against a 32 × 577 × 3 × 12 × 64 view with the head axis moved),
  and reading both at coordinates removes the difference. No law of real arithmetic that fails at the infinities is
  used, so the precondition is never opened.

  Proof/KernelValue.lean reads the kernel's run (the result array is `Attn.layer` of the arguments), Proof/RefAt.lean the
  reference's (`result_eq`); the frames are the generated ones, the reference's its generated run with the result
  dropped; the idealization rewrote nothing, so `preserves` is trivial.
-/
import proofs.«168642_j24395414241982_2_alg».proof.Defs
import proofs.«168642_j24395414241982_2_alg».proof.Proof.Gen.Kernel
import proofs.«168642_j24395414241982_2_alg».proof.Proof.Gen.Kernel.Skeleton
import proofs.«168642_j24395414241982_2_alg».proof.Proof.Gen.Kernel.Launch
import proofs.«168642_j24395414241982_2_alg».proof.Proof.Gen.Kernel.Points
import proofs.«168642_j24395414241982_2_alg».proof.Proof.Gen.Kernel.Frame
import proofs.«168642_j24395414241982_2_alg».proof.Proof.Gen.KernelIdeal
import proofs.«168642_j24395414241982_2_alg».proof.Proof.Gen.KernelIdeal.Skeleton
import proofs.«168642_j24395414241982_2_alg».proof.Proof.Gen.KernelIdeal.Launch
import proofs.«168642_j24395414241982_2_alg».proof.Proof.Gen.KernelIdeal.Points
import proofs.«168642_j24395414241982_2_alg».proof.Proof.Gen.KernelIdeal.Frame
import proofs.«168642_j24395414241982_2_alg».proof.Proof.Gen.ReferenceIdeal
import proofs.«168642_j24395414241982_2_alg».proof.Proof.Gen.Pre_finite_inputs
import proofs.«168642_j24395414241982_2_alg».proof.Proof.Gen.KernelIdeal.Value
import proofs.«168642_j24395414241982_2_alg».proof.Proof.Gen.ReferenceIdeal.Run
import proofs.«168642_j24395414241982_2_alg».proof.Proof.Gen.ReferenceIdeal.Read
import proofs.«168642_j24395414241982_2_alg».proof.Proof.KernelValue
import proofs.«168642_j24395414241982_2_alg».proof.Proof.RefAt
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both runs end with the result array at `Attn.layer` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefAt.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
